-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S64x16384 : Shape := ⟨2, ![64, 16384]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S64x16384 : S_.BroadcastsInDim S64x16384 (![] : Fin 0 → Fin S64x16384.rank)
  reducesTo_S64x16384_S_d0_1 : S64x16384.ReducesTo [0, 1] S_

variable [Facts]

def fn {F : FTy → Type} [FloatOps F] (main_arg0 : FVec F S128x4096 .f32) (main_arg1 : FVec F S64x16384 .f32) (main_arg2 : IVec S64x16384 32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S64x16384 .f32 := Host.absf main_arg1
  let main_cst_0 : FVec F S_ .f32 := constant S_ .f32 0x7F800000#32
  let main_v5 : FVec F S64x16384 .f32 := broadcastInDim S64x16384 ![] bcast_S_S64x16384 main_cst_0
  let main_v6 : IVec S64x16384 1 := cmpf .olt main_v4 main_v5
  let main_c_1 : IVec S_ 1 := constantI S_ 1 1#1
  let main_v7 : IVec S_ 1 := (fun x v => Host.reduce IntOp.andi x v reducesTo_S64x16384_S_d0_1 h_S_) main_v6 main_c_1
  let main_v8 : IVec S_ 1 := andi main_v3 main_v7
  main_v8
-- ==== Kernel.lean ====
abbrev S128x4096 : Shape := ⟨2, ![128, 4096]⟩
abbrev S64x16384 : Shape := ⟨2, ![64, 16384]⟩
abbrev S64x1x16384 : Shape := ⟨3, ![64, 1, 16384]⟩
abbrev S1x64x16384 : Shape := ⟨3, ![1, 64, 16384]⟩
abbrev S64x64x16384 : Shape := ⟨3, ![64, 64, 16384]⟩
abbrev S_ : Shape := ⟨0, ![]⟩
abbrev S64x64 : Shape := ⟨2, ![64, 64]⟩
abbrev S64x64x1 : Shape := ⟨3, ![64, 64, 1]⟩
abbrev S16384 : Shape := ⟨1, ![16384]⟩
abbrev S4096x16384 : Shape := ⟨2, ![4096, 16384]⟩
abbrev S64x16384x1 : Shape := ⟨3, ![64, 16384, 1]⟩
abbrev S64x16384x2 : Shape := ⟨3, ![64, 16384, 2]⟩
abbrev S128x16384 : Shape := ⟨2, ![128, 16384]⟩
abbrev S4096x1024 : Shape := ⟨2, ![4096, 1024]⟩
abbrev S128x1024 : Shape := ⟨2, ![128, 1024]⟩
abbrev S128x64x256 : Shape := ⟨3, ![128, 64, 256]⟩

abbrev nBuf : Space → Nat
  | .hbm => 52
  | .vmem => 5
  | .smem => 0
  | _ => 0

abbrev bufTy : (tb : Table) → Fin (tcTables nBuf tb) → BufTy
  | .hbm, ⟨0, _⟩ => ⟨S128x4096, .f32⟩
  | .hbm, ⟨1, _⟩ => ⟨S64x16384, .f32⟩
  | .hbm, ⟨2, _⟩ => ⟨S64x16384, .i32⟩
  | .hbm, ⟨3, _⟩ => ⟨S64x1x16384, .i32⟩
  | .hbm, ⟨4, _⟩ => ⟨S1x64x16384, .i32⟩
  | .hbm, ⟨5, _⟩ => ⟨S64x64x16384, .i32⟩
  | .hbm, ⟨6, _⟩ => ⟨S64x64x16384, .i32⟩
  | .hbm, ⟨7, _⟩ => ⟨S64x64x16384, .i1⟩
  | .hbm, ⟨8, _⟩ => ⟨S_, .i1⟩
  | .hbm, ⟨9, _⟩ => ⟨S64x64, .i1⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S64x64, .i32⟩
  | .hbm, ⟨15, _⟩ => ⟨S64x64, .i1⟩
  | .hbm, ⟨16, _⟩ => ⟨S_, .i1⟩
  | .hbm, ⟨17, _⟩ => ⟨S64x64, .i1⟩
  | .hbm, ⟨18, _⟩ => ⟨S64x64, .i1⟩
  | .hbm, ⟨19, _⟩ => ⟨S64x64x1, .i1⟩
  | .hbm, ⟨20, _⟩ => ⟨S64x64x16384, .i1⟩
  | .hbm, ⟨21, _⟩ => ⟨S64x64x16384, .i1⟩
  | .hbm, ⟨22, _⟩ => ⟨S_, .i1⟩
  | .hbm, ⟨23, _⟩ => ⟨S64x16384, .i1⟩
  | .hbm, ⟨24, _⟩ => ⟨S64x16384, .i1⟩
  | .hbm, ⟨25, _⟩ => ⟨S_, .f32⟩
  | .hbm, ⟨26, _⟩ => ⟨S64x16384, .f32⟩
  | .hbm, ⟨27, _⟩ => ⟨S64x16384, .f32⟩
  | .hbm, ⟨28, _⟩ => ⟨S16384, .i32⟩
  | .hbm, ⟨29, _⟩ => ⟨S64x16384, .i32⟩
  | .hbm, ⟨30, _⟩ => ⟨S_, .f32⟩
  | .hbm, ⟨31, _⟩ => ⟨S4096x16384, .f32⟩
  | .hbm, ⟨32, _⟩ => ⟨S_, .i32⟩
  | .hbm, ⟨33, _⟩ => ⟨S64x16384, .i32⟩
  | .hbm, ⟨34, _⟩ => ⟨S64x16384, .i1⟩
  | .hbm, ⟨35, _⟩ => ⟨S_, .i32⟩
  | .hbm, ⟨36, _⟩ => ⟨S64x16384, .i32⟩
  | .hbm, ⟨37, _⟩ => ⟨S64x16384, .i32⟩
  | .hbm, ⟨38, _⟩ => ⟨S64x16384, .i32⟩
  | .hbm, ⟨39, _⟩ => ⟨S_, .i32⟩
  | .hbm, ⟨40, _⟩ => ⟨S64x16384, .i32⟩
  | .hbm, ⟨41, _⟩ => ⟨S64x16384, .i1⟩
  | .hbm, ⟨42, _⟩ => ⟨S_, .i32⟩
  | .hbm, ⟨43, _⟩ => ⟨S64x16384, .i32⟩
  | .hbm, ⟨44, _⟩ => ⟨S64x16384, .i32⟩
  | .hbm, ⟨45, _⟩ => ⟨S64x16384, .i32⟩
  | .hbm, ⟨46, _⟩ => ⟨S64x16384x1, .i32⟩
  | .hbm, ⟨47, _⟩ => ⟨S64x16384x1, .i32⟩
  | .hbm, ⟨48, _⟩ => ⟨S64x16384x2, .i32⟩
  | .hbm, ⟨49, _⟩ => ⟨S4096x16384, .f32⟩
  | .hbm, ⟨50, _⟩ => ⟨S128x16384, .f32⟩
  | .hbm, ⟨51, _⟩ => ⟨S128x64x256, .f32⟩
  | .local _ .vmem, ⟨0, _⟩ => ⟨S128x4096, .f32⟩
  | .local _ .vmem, ⟨1, _⟩ => ⟨S4096x1024, .f32⟩
  | .local _ .vmem, ⟨2, _⟩ => ⟨S4096x1024, .f32⟩
  | .local _ .vmem, ⟨3, _⟩ => ⟨S128x1024, .f32⟩
  | .local _ .vmem, ⟨4, _⟩ => ⟨S128x1024, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_call1_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64x16384_S64x1x16384_0_2 : S64x16384.BroadcastsInDim S64x1x16384 (![0, 2] : Fin 2 → Fin S64x1x16384.rank)
  bcast_S64x16384_S1x64x16384_1_2 : S64x16384.BroadcastsInDim S1x64x16384 (![1, 2] : Fin 2 → Fin S1x64x16384.rank)
  bcast_S64x1x16384_S64x64x16384_0_1_2 : S64x1x16384.BroadcastsInDim S64x64x16384 (![0, 1, 2] : Fin 3 → Fin S64x64x16384.rank)
  bcast_S1x64x16384_S64x64x16384_0_1_2 : S1x64x16384.BroadcastsInDim S64x64x16384 (![0, 1, 2] : Fin 3 → Fin S64x64x16384.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x64x1_S64x64x16384_0_1_2 : S64x64x1.BroadcastsInDim S64x64x16384 (![0, 1, 2] : Fin 3 → Fin S64x64x16384.rank)
  reducesTo_S64x64x16384_S64x16384_d1 : S64x64x16384.ReducesTo [1] S64x16384
  h_S_ : 0 < S_.numel
  bcast_S_S64x16384 : S_.BroadcastsInDim S64x16384 (![] : Fin 0 → Fin S64x16384.rank)
  bcast_S16384_S64x16384_1 : S16384.BroadcastsInDim S64x16384 (![1] : Fin 1 → Fin S64x16384.rank)
  bcast_S_S4096x16384 : S_.BroadcastsInDim S4096x16384 (![] : Fin 0 → Fin S4096x16384.rank)
  bcast_S64x16384_S64x16384x1_0_1 : S64x16384.BroadcastsInDim S64x16384x1 (![0, 1] : Fin 2 → Fin S64x16384x1.rank)
  concatenates_S64x16384x1_S64x16384x1_S64x16384x2_d2 : Shape.Concatenates [S64x16384x1, S64x16384x1] S64x16384x2 2
  inb_S128x4096_S128x4096_0_0 : ∀ a, (![0, 0] : Fin 2 → Nat) a + S128x4096.size a ≤ S128x4096.size a
  h_S128x4096 : 0 < S128x4096.numel
  bitsLt_bf16_f32 : FTy.bits .bf16 < FTy.bits .f32
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S128x1024_S128x1024_0_0 : ∀ a, (![0, 0] : Fin 2 → Nat) a + S128x1024.size a ≤ S128x1024.size a
  h_S128x1024 : 0 < S128x1024.numel
  shapeCasts_S128x16384_S128x64x256 : S128x16384.ShapeCasts S128x64x256
  scatter_S4096x16384_S64x16384x2_S64x16384_n_01_01_2_wf : ScatterDims.WF S4096x16384 S64x16384x2 S64x16384 [] [0, 1] [0, 1] 2
  dot_S128x4096_S4096x1024_S128x1024_1_0_0_1_n_n_wf : DotDims.WF S128x4096 S4096x1024 S128x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .f32 = 32 ∨ (Rect.block (s := S128x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x16384.size a
  hwx0_1 : ∀ i : grid0.Coords, EltTy.bits .f32 = 32 ∨ (Rect.block (s := S4096x16384) S4096x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x16384.size a
  hwx0_2 : ∀ i : grid0.Coords, EltTy.bits .f32 = 32 ∨ (Rect.block (s := S128x16384) S128x1024.size (cc0_transform_2 i) (hinb0_2 i)).WholeWords (EltTy.packing .f32)

variable [Facts₀]

def scatter_S4096x16384_S64x16384x2_S64x16384_n_01_01_2 : ScatterDims S4096x16384 S64x16384x2 S64x16384 where
  updateWindowDims := []
  insertedWindowDims := [0, 1]
  scatterDimsToOperandDims := [0, 1]
  indexVectorDim := 2
  wf := scatter_S4096x16384_S64x16384x2_S64x16384_n_01_01_2_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_arg0) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v29) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x4096 : Shape := ⟨2, ![128, 4096]⟩
abbrev S64x16384 : Shape := ⟨2, ![64, 16384]⟩
abbrev S64x1x16384 : Shape := ⟨3, ![64, 1, 16384]⟩
abbrev S1x64x16384 : Shape := ⟨3, ![1, 64, 16384]⟩
abbrev S64x64x16384 : Shape := ⟨3, ![64, 64, 16384]⟩
abbrev S_ : Shape := ⟨0, ![]⟩
abbrev S64x64 : Shape := ⟨2, ![64, 64]⟩
abbrev S64x64x1 : Shape := ⟨3, ![64, 64, 1]⟩
abbrev S16384 : Shape := ⟨1, ![16384]⟩
abbrev S4096x16384 : Shape := ⟨2, ![4096, 16384]⟩
abbrev S64x16384x1 : Shape := ⟨3, ![64, 16384, 1]⟩
abbrev S64x16384x2 : Shape := ⟨3, ![64, 16384, 2]⟩
abbrev S128x16384 : Shape := ⟨2, ![128, 16384]⟩
abbrev S128x64x256 : Shape := ⟨3, ![128, 64, 256]⟩

abbrev nBuf : Space → Nat
  | .hbm => 52
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S64x16384, .f32⟩
  | .hbm, ⟨2, _⟩ => ⟨S64x16384, .i32⟩
  | .hbm, ⟨3, _⟩ => ⟨S64x1x16384, .i32⟩
  | .hbm, ⟨4, _⟩ => ⟨S1x64x16384, .i32⟩
  | .hbm, ⟨5, _⟩ => ⟨S64x64x16384, .i32⟩
  | .hbm, ⟨6, _⟩ => ⟨S64x64x16384, .i32⟩
  | .hbm, ⟨7, _⟩ => ⟨S64x64x16384, .i1⟩
  | .hbm, ⟨8, _⟩ => ⟨S_, .i1⟩
  | .hbm, ⟨9, _⟩ => ⟨S64x64, .i1⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S64x64, .i32⟩
  | .hbm, ⟨15, _⟩ => ⟨S64x64, .i1⟩
  | .hbm, ⟨16, _⟩ => ⟨S_, .i1⟩
  | .hbm, ⟨17, _⟩ => ⟨S64x64, .i1⟩
  | .hbm, ⟨18, _⟩ => ⟨S64x64, .i1⟩
  | .hbm, ⟨19, _⟩ => ⟨S64x64x1, .i1⟩
  | .hbm, ⟨20, _⟩ => ⟨S64x64x16384, .i1⟩
  | .hbm, ⟨21, _⟩ => ⟨S64x64x16384, .i1⟩
  | .hbm, ⟨22, _⟩ => ⟨S_, .i1⟩
  | .hbm, ⟨23, _⟩ => ⟨S64x16384, .i1⟩
  | .hbm, ⟨24, _⟩ => ⟨S64x16384, .i1⟩
  | .hbm, ⟨25, _⟩ => ⟨S_, .f32⟩
  | .hbm, ⟨26, _⟩ => ⟨S64x16384, .f32⟩
  | .hbm, ⟨27, _⟩ => ⟨S64x16384, .f32⟩
  | .hbm, ⟨28, _⟩ => ⟨S16384, .i32⟩
  | .hbm, ⟨29, _⟩ => ⟨S64x16384, .i32⟩
  | .hbm, ⟨30, _⟩ => ⟨S_, .f32⟩
  | .hbm, ⟨31, _⟩ => ⟨S4096x16384, .f32⟩
  | .hbm, ⟨32, _⟩ => ⟨S_, .i32⟩
  | .hbm, ⟨33, _⟩ => ⟨S64x16384, .i32⟩
  | .hbm, ⟨34, _⟩ => ⟨S64x16384, .i1⟩
  | .hbm, ⟨35, _⟩ => ⟨S_, .i32⟩
  | .hbm, ⟨36, _⟩ => ⟨S64x16384, .i32⟩
  | .hbm, ⟨37, _⟩ => ⟨S64x16384, .i32⟩
  | .hbm, ⟨38, _⟩ => ⟨S64x16384, .i32⟩
  | .hbm, ⟨39, _⟩ => ⟨S_, .i32⟩
  | .hbm, ⟨40, _⟩ => ⟨S64x16384, .i32⟩
  | .hbm, ⟨41, _⟩ => ⟨S64x16384, .i1⟩
  | .hbm, ⟨42, _⟩ => ⟨S_, .i32⟩
  | .hbm, ⟨43, _⟩ => ⟨S64x16384, .i32⟩
  | .hbm, ⟨44, _⟩ => ⟨S64x16384, .i32⟩
  | .hbm, ⟨45, _⟩ => ⟨S64x16384, .i32⟩
  | .hbm, ⟨46, _⟩ => ⟨S64x16384x1, .i32⟩
  | .hbm, ⟨47, _⟩ => ⟨S64x16384x1, .i32⟩
  | .hbm, ⟨48, _⟩ => ⟨S64x16384x2, .i32⟩
  | .hbm, ⟨49, _⟩ => ⟨S4096x16384, .f32⟩
  | .hbm, ⟨50, _⟩ => ⟨S128x16384, .f32⟩
  | .hbm, ⟨51, _⟩ => ⟨S128x64x256, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_call1_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  bcast_S64x16384_S64x1x16384_0_2 : S64x16384.BroadcastsInDim S64x1x16384 (![0, 2] : Fin 2 → Fin S64x1x16384.rank)
  bcast_S64x16384_S1x64x16384_1_2 : S64x16384.BroadcastsInDim S1x64x16384 (![1, 2] : Fin 2 → Fin S1x64x16384.rank)
  bcast_S64x1x16384_S64x64x16384_0_1_2 : S64x1x16384.BroadcastsInDim S64x64x16384 (![0, 1, 2] : Fin 3 → Fin S64x64x16384.rank)
  bcast_S1x64x16384_S64x64x16384_0_1_2 : S1x64x16384.BroadcastsInDim S64x64x16384 (![0, 1, 2] : Fin 3 → Fin S64x64x16384.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x64x1_S64x64x16384_0_1_2 : S64x64x1.BroadcastsInDim S64x64x16384 (![0, 1, 2] : Fin 3 → Fin S64x64x16384.rank)
  reducesTo_S64x64x16384_S64x16384_d1 : S64x64x16384.ReducesTo [1] S64x16384
  h_S_ : 0 < S_.numel
  bcast_S_S64x16384 : S_.BroadcastsInDim S64x16384 (![] : Fin 0 → Fin S64x16384.rank)
  bcast_S16384_S64x16384_1 : S16384.BroadcastsInDim S64x16384 (![1] : Fin 1 → Fin S64x16384.rank)
  bcast_S_S4096x16384 : S_.BroadcastsInDim S4096x16384 (![] : Fin 0 → Fin S4096x16384.rank)
  bcast_S64x16384_S64x16384x1_0_1 : S64x16384.BroadcastsInDim S64x16384x1 (![0, 1] : Fin 2 → Fin S64x16384x1.rank)
  concatenates_S64x16384x1_S64x16384x1_S64x16384x2_d2 : Shape.Concatenates [S64x16384x1, S64x16384x1] S64x16384x2 2
  shapeCasts_S128x16384_S128x64x256 : S128x16384.ShapeCasts S128x64x256
  scatter_S4096x16384_S64x16384x2_S64x16384_n_01_01_2_wf : ScatterDims.WF S4096x16384 S64x16384x2 S64x16384 [] [0, 1] [0, 1] 2
  dot_S128x4096_S4096x16384_S128x16384_1_0_0_1_n_n_wf : DotDims.WF S128x4096 S4096x16384 S128x16384 [1] [0] [0] [1] [] []

variable [Facts₀]

def scatter_S4096x16384_S64x16384x2_S64x16384_n_01_01_2 : ScatterDims S4096x16384 S64x16384x2 S64x16384 where
  updateWindowDims := []
  insertedWindowDims := [0, 1]
  scatterDimsToOperandDims := [0, 1]
  indexVectorDim := 2
  wf := scatter_S4096x16384_S64x16384x2_S64x16384_n_01_01_2_wf
def dot_S128x4096_S4096x16384_S128x16384_1_0_0_1_n_n : DotDims S128x4096 S4096x16384 S128x16384 where
  lhsContracting := [1]
  rhsContracting := [0]
  lhsNonContracting := [0]
  rhsNonContracting := [1]
  lhsBatch := []
  rhsBatch := []
  wf := dot_S128x4096_S4096x16384_S128x16384_1_0_0_1_n_n_wf

class Facts : Prop extends Facts₀ where

variable [Facts]
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.BodyProduct.lean ====
/-
  What the kernel body stores, entry by entry.  The body loads a 128 × 4096 tile and a 4096 × 1024 tile, narrows both
  to bf16 — at the ideal instance a change of float format is the identity on the extended reals —, multiplies them
  into a zero accumulator and stores the 128 × 1024 product.  So entry (p, q) of what it stores is the plain sum over
  k < 4096 of left(p, k) · right(k, q): the zero accumulator adds nothing, and no law beyond 0 + s = s is used, so no
  finiteness of the inputs is needed.
-/
import proofs.«138841_j50448685859461_1_alg».proof.Proof.Gen.KernelIdeal.Skeleton
import proofs.«138841_j50448685859461_1_alg».proof.Proof.LibPlainDot
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The row coordinate of the left operand's index is the output's row: axis 0 of the left operand is its one free axis. -/
theorem lhs_row (j : S128x1024.Idx) (k : dot_S128x4096_S4096x1024_S128x1024_1_0_0_1_n_n.contr.Idx) :
    (dot_S128x4096_S4096x1024_S128x1024_1_0_0_1_n_n.lhsIdx j k 0).val = (j 0).val := by
  unfold DotDims.lhsIdx
  rw [dif_neg (show ¬(0 : Fin S128x4096.rank) ∈ dot_S128x4096_S4096x1024_S128x1024_1_0_0_1_n_n.lhsBatch by decide),
    dif_pos (show (0 : Fin S128x4096.rank) ∈ dot_S128x4096_S4096x1024_S128x1024_1_0_0_1_n_n.lhsNonContracting by decide)]
  rfl

/-- The column coordinate of the right operand's index is the output's column: axis 1 of the right operand is its one free axis. -/
theorem rhs_col (j : S128x1024.Idx) (k : dot_S128x4096_S4096x1024_S128x1024_1_0_0_1_n_n.contr.Idx) :
    (dot_S128x4096_S4096x1024_S128x1024_1_0_0_1_n_n.rhsIdx j k 1).val = (j 1).val := by
  unfold DotDims.rhsIdx
  rw [dif_neg (show ¬(1 : Fin S4096x1024.rank) ∈ dot_S128x4096_S4096x1024_S128x1024_1_0_0_1_n_n.rhsBatch by decide),
    dif_pos (show (1 : Fin S4096x1024.rank) ∈ dot_S128x4096_S4096x1024_S128x1024_1_0_0_1_n_n.rhsNonContracting by decide)]
  rfl

/-- Entry (p, q) of the stored tile is the sum over k of left(p, k) · right(k, q). -/
theorem stored_apply (x0 : Vec Ideal S128x4096 .f32) (x1 : Vec Ideal S4096x1024 .f32) (p : Fin 128) (q : Fin 1024) :
    k0_pay1 (F := Ideal) x0 x1 (ix2 p q) = ∑ k : Fin 4096, x0 (ix2 p k) * x1 (ix2 k q) := by
  unfold k0_pay1
  rw [shapeCast_self]
  exact Cert.LibPlainDot.matmul_zero_apply dot_S128x4096_S4096x1024_S128x1024_1_0_0_1_n_n rfl rfl rfl rfl lhs_row rhs_col none x0 x1 p q

end Cert.KernelIdeal.Body

end
-- ==== Proof.ProductSpec.lean ====
/-
  The specification both programs meet: the product of a 128 × 4096 array x by a 4096 × 16384 array d on the extended
  reals, entry by entry — entry (r, c) is the sum over k < 4096 of x(r, k) · d(k, c).  The array d is the dense weight
  matrix the shared host code scatters together from the sparse weights and their row indices; here it is any array.
-/
import Idealize.ShloMosaic.PureOps.Ideal
import Idealize.ShloMosaic.Lib.ValueIdx

noncomputable section

namespace Cert.Spec

open Idealize.ShloMosaic Idealize.ShloMosaic.ValueIdx

/-- The 128 × 16384 product of x by d. -/
def product (x : FVec Ideal (⟨2, ![128, 4096]⟩ : Shape) .f32) (d : FVec Ideal (⟨2, ![4096, 16384]⟩ : Shape) .f32) :
    FVec Ideal (⟨2, ![128, 16384]⟩ : Shape) .f32 :=
  fun i => ∑ k : Fin 4096, x (ix2 (⟨(i 0).val, (i 0).isLt⟩ : Fin 128) k) * d (ix2 k (⟨(i 1).val, (i 1).isLt⟩ : Fin 16384))

/-- Its entry at row r and column c. -/
theorem product_apply (x : FVec Ideal (⟨2, ![128, 4096]⟩ : Shape) .f32) (d : FVec Ideal (⟨2, ![4096, 16384]⟩ : Shape) .f32)
    (r : Fin 128) (c : Fin 16384) :
    product x d (ix2 r c) = ∑ k : Fin 4096, x (ix2 r k) * d (ix2 k c) := rfl

end Cert.Spec

end
-- ==== Proof.Tiles.lean ====
/-
  From the sixteen column tiles to the whole product.  The grid has sixteen points.  At point t the kernel sees the
  whole left array x (its window never moves) and columns 1024·t … 1024·t + 1023 of the dense matrix d, and writes
  back columns 1024·t … 1024·t + 1023 of the output.  Entry (p, q) of what it writes is the sum over k of
  x(p, k) · d(k, 1024·t + q), which is entry (p, 1024·t + q) of the product x · d.  The sixteen tiles cover every
  column, so after the run the output array is the product x · d.
-/
import proofs.«138841_j50448685859461_1_alg».proof.Proof.Gen.KernelIdeal.Frame
import proofs.«138841_j50448685859461_1_alg».proof.Proof.BodyProduct
import proofs.«138841_j50448685859461_1_alg».proof.Proof.ProductSpec
import Idealize.ShloMosaic.Lib.Pipeline.Value
import Idealize.ShloMosaic.Lib.ValueIdx

set_option maxRecDepth 16384

noncomputable section

namespace Cert.KernelIdeal.Tiles

open Cert.KernelIdeal Cert.KernelIdeal.Gen Idealize.ShloMosaic Idealize.ShloMosaic.TcCoe Idealize.ShloMosaic.ValueIdx Idealize.SL.Sem
open Idealize.ShloMosaic.Pipeline (Dat)

/-- The stored tile against the product: if the left tile is x and the right tile is columns T·1024 … of d, then the
    stored tile at (p, q) is the product at (p, T·1024 + q). -/
theorem tile_eq (X : Vec Ideal S128x4096 .f32) (Dm : Vec Ideal S4096x16384 .f32)
    (x0 : Vec Ideal S128x4096 .f32) (x1 : Vec Ideal S4096x1024 .f32) (T : Nat) (hT : T < 16)
    (h0 : ∀ (p : Fin 128) (k : Fin 4096), x0 (ix2 p k) = X (ix2 p k))
    (h1 : ∀ (k : Fin 4096) (q : Fin 1024), x1 (ix2 k q) = Dm (ix2 k (⟨T * 1024 + q.val, by omega⟩ : Fin 16384)))
    (j : S128x1024.Idx) (i : S128x16384.Idx) (hi0 : (i 0).val = (j 0).val) (hi1 : (i 1).val = T * 1024 + (j 1).val) :
    k0_pay1 (F := Ideal) x0 x1 j = Cert.Spec.product X Dm i := by
  obtain ⟨p, q, rfl⟩ : ∃ (p : Fin 128) (q : Fin 1024), j = ix2 p q := ⟨j 0, j 1, eq_ix2 j⟩
  have hi : i = ix2 p (⟨T * 1024 + q.val, by omega⟩ : Fin 16384) := by
    funext a; apply Fin.ext
    match a with
    | ⟨0, _⟩ => exact hi0
    | ⟨1, _⟩ => exact hi1
  rw [hi, Cert.Spec.product_apply, Cert.KernelIdeal.Body.stored_apply]
  exact Finset.sum_congr rfl fun k _ => by rw [h0, h1]

variable (m : (ℓ : Loc nD τ sig) → Buf (Elt Ideal) ℓ)

theorem zero_offsets : (![0, 0] : Fin 2 → Nat) = fun _ => 0 := funext fun a => by fin_cases a <;> rfl

/-- The printed index maps over the grid: the left operand's window stays at block (0, 0); at point t the right
    operand's and the output's windows are at block (0, t). -/
theorem index_maps : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- What point t writes back is tile t of the product of the arrays as the region finds them. -/
theorem flushed_eq (c : Dev nD) (t : Fin cfg0.N) :
    (dats m 0 c).flushed 2 t
      = ((cfg0.win 2).blk t).view.read (Elt Ideal) (Cert.Spec.product (V m c main_arg0) (V m c main_v29)) := by
  show (cfg0.win 2).cut (grid0.coords t) ((dats m 0 c).after 2 t) = _
  rw [after0_2]
  unfold out0_2
  rw [View.canon_unit_zero zero_offsets]
  simp only [View.ld_unit_zero (S := S128x4096) zero_offsets, View.ld_unit_zero (S := S4096x1024) zero_offsets]
  obtain ⟨e00, e01, e10, e11, e20, e21⟩ := index_maps t
  have ht : t.val < 16 := Nat.lt_of_lt_of_eq t.isLt N_0
  funext j
  show k0_pay1 (F := Ideal) (iblk m c 0 t) (iblk m c 1 t) j
    = Cert.Spec.product (V m c main_arg0) (V m c main_v29) (((cfg0.win 2).blk t).view.emb j)
  refine tile_eq (V m c main_arg0) (V m c main_v29) (iblk m c 0 t) (iblk m c 1 t) t.val ht ?_ ?_ j _ ?_ ?_
  · intro p k
    show V m c main_arg0 (((cfg0.win 0).blk t).view.emb (ix2 p k)) = V m c main_arg0 (ix2 p k)
    refine congrArg _ (funext fun a => Fin.ext ?_)
    match a with
    | ⟨0, _⟩ => show win0_0.index t (0 : Fin 2) * 128 + 1 * p.val = p.val; omega
    | ⟨1, _⟩ => show win0_0.index t (1 : Fin 2) * 4096 + 1 * k.val = k.val; omega
  · intro k q
    show V m c main_v29 (((cfg0.win 1).blk t).view.emb (ix2 k q)) = V m c main_v29 (ix2 k _)
    refine congrArg _ (funext fun a => Fin.ext ?_)
    match a with
    | ⟨0, _⟩ => show win0_1.index t (0 : Fin 2) * 4096 + 1 * k.val = k.val; omega
    | ⟨1, _⟩ => show win0_1.index t (1 : Fin 2) * 1024 + 1 * q.val = t.val * 1024 + q.val; omega
  · show win0_2.index t (0 : Fin 2) * 128 + 1 * (j 0).val = (j 0).val; omega
  · show win0_2.index t (1 : Fin 2) * 1024 + 1 * (j 1).val = t.val * 1024 + (j 1).val; omega

/-- An index of the output array is in point t's tile iff each coordinate is in the tile's range on its axis. -/
theorem mem_tile (t : Fin cfg0.N) (i : S128x16384.Idx) :
    i ∈ ((cfg0.win 2).blk t).view.set ↔ ∀ a : Fin 2, win0_2.index t a * S128x1024.size a ≤ (i a).val
      ∧ (i a).val < win0_2.index t a * S128x1024.size a + S128x1024.size a := by
  show i ∈ ((View.whole main_v30).slice (win0_2.rect t)).set ↔ _
  rw [View.set_slice_whole, Rect.mem_set_unit]
  exact Iff.rfl

/-- Every entry of the output lies in a written tile: column c lies in tile c / 1024. -/
theorem covered (i : S128x16384.Idx) :
    ∃ t : Fin cfg0.N, (cfg0.win 2).flush t = true ∧ i ∈ ((cfg0.win 2).blk t).view.set := by
  have hi0 : (i 0).val < 128 := (i 0).isLt
  have hi1 : (i 1).val < 16384 := (i 1).isLt
  have hN : (i 1).val / 1024 < cfg0.N := by rw [show cfg0.N = 16 from N_0]; omega
  obtain ⟨-, -, -, -, e20, e21⟩ := index_maps ⟨(i 1).val / 1024, hN⟩
  refine ⟨⟨(i 1).val / 1024, hN⟩, flush0_2 _, ?_⟩
  rw [mem_tile]
  intro a
  match a with
  | ⟨0, _⟩ =>
    show win0_2.index ⟨(i 1).val / 1024, hN⟩ (0 : Fin 2) * 128 ≤ (i 0).val
      ∧ (i 0).val < win0_2.index ⟨(i 1).val / 1024, hN⟩ (0 : Fin 2) * 128 + 128
    omega
  | ⟨1, _⟩ =>
    show win0_2.index ⟨(i 1).val / 1024, hN⟩ (1 : Fin 2) * 1024 ≤ (i 1).val
      ∧ (i 1).val < win0_2.index ⟨(i 1).val / 1024, hN⟩ (1 : Fin 2) * 1024 + 1024
    have e : (⟨(i 1).val / 1024, hN⟩ : Fin cfg0.N).val = (i 1).val / 1024 := rfl
    omega

/-- After the run the output array is the product of x by the dense matrix, both as the region finds them. -/
theorem final (c : Dev nD) :
    (dats m 0 c).arrAt 2 cfg0.N = Cert.Spec.product (V m c main_arg0) (V m c main_v29) :=
  (dats m 0 c).arrAt_eq_of_cover 2 _ (fun t _ => flushed_eq m c t) covered

end Cert.KernelIdeal.Tiles

end
-- ==== Proof.HostSide.lean ====
/-
  The host code around the kernel.  Before the kernel both programs run the same host operations: they build the
  last-write-wins mask from the index array, zero the masked-out weights, and scatter-add them into a dense
  4096 × 16384 matrix.  The operations are the same, in the same order, on the same arguments, so the array the kernel
  finds as its right operand is the reference's dense-matrix stage of the same arguments: the two terms are one.
  After the kernel one reshape turns the 128 × 16384 output into the 128 × 64 × 256 result.
-/
import proofs.«138841_j50448685859461_1_alg».proof.Proof.Gen.KernelIdeal.Frame
import proofs.«138841_j50448685859461_1_alg».proof.Proof.Gen.ReferenceIdeal.Read
import Idealize.ShloMosaic.Lib.StableHlo.Run
import Idealize.ShloMosaic.Lib.Pipeline.FrameSuffix

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 2000000 in
/-- The right operand as the kernel finds it is the dense matrix the reference builds from the same weights and indices. -/
theorem dense_eq (c : Dev nD) :
    (V m c main_v29 : S4096x16384.Idx → Elt F .f32)
      = Cert.ReferenceIdeal.Read.val_main_v29 (F := F) (m ((c : Thread nD τ).loc main_arg1)) (m ((c : Thread nD τ).loc main_arg2)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- The program's result is the reshape of the output array the kernel leaves. -/
theorem result_eq (c : Dev nD) :
    Pipeline.afterTail₀ cfgs (dats m) 0 (V0 m) [hostOps1] c main_v31
      = shapeCast S128x64x256 ((dats m 0 c).arrAt 2 cfg0.N) shapeCasts_S128x16384_S128x64x256 := by
  unfold Pipeline.afterTail₀
  show StableHlo.after hostOps1 _ (Proc.devRef .tc main_v31) = _
  after_results
  have e : Pipeline.withArrays (cfgs 0).spec c (V0 m c) (fun w => (dats m 0 c).arrAt w (cfgs 0).N) (Proc.devRef .tc main_v30)
      = (dats m 0 c).arrAt 2 cfg0.N :=
    Pipeline.withArrays_arr spec0 launch0.win.arr_inj c (V0 m c) (fun w => (dats m 0 c).arrAt w cfg0.N) 2
  rw [e]
  rfl

end Cert.KernelIdeal.HostSide

end
-- ==== Proof.RefProduct.lean ====
/-
  The reference's matrix product is the specification.  The reference multiplies x by the dense matrix with one host
  dot_general contracting the second axis of x with the first axis of the dense matrix; at the ideal instance its
  entry (r, c) is the sum over k of x(r, k) · dense(k, c), which is the specification's entry.
-/
import proofs.«138841_j50448685859461_1_alg».proof.Proof.Gen.ReferenceIdeal.Read
import proofs.«138841_j50448685859461_1_alg».proof.Proof.ProductSpec
import Idealize.ShloMosaic.Lib.ValueIdx

noncomputable section

namespace Cert.ReferenceIdeal.RefValue

open Cert.ReferenceIdeal Idealize.ShloMosaic Idealize.ShloMosaic.ValueIdx

/-- The reference's product stage is the product of x by the reference's dense-matrix stage. -/
theorem product_eq (x0 : (⟨S128x4096, .f32⟩ : BufTy).Contents (Elt Ideal)) (x1 : (⟨S64x16384, .f32⟩ : BufTy).Contents (Elt Ideal))
    (x2 : (⟨S64x16384, .i32⟩ : BufTy).Contents (Elt Ideal)) :
    Read.val_main_v30 (F := Ideal) x0 x1 x2 = Cert.Spec.product x0 (Read.val_main_v29 (F := Ideal) x1 x2) := by
  funext i
  rw [Read.val_main_v30_apply]
  unfold Cert.Spec.product
  refine Finset.sum_congr rfl fun k _ => ?_
  have el : Read.lidx_main_v30 i k = ix2 (⟨(i 0).val, (i 0).isLt⟩ : Fin 128) k :=
    funext fun a => by match a with | ⟨0, _⟩ => rfl | ⟨1, _⟩ => rfl
  have er : Read.ridx_main_v30 i k = ix2 k (⟨(i 1).val, (i 1).isLt⟩ : Fin 16384) :=
    funext fun a => by match a with | ⟨0, _⟩ => rfl | ⟨1, _⟩ => rfl
  rw [el, er]

end Cert.ReferenceIdeal.RefValue

end
-- ==== Proof.KernelRun.lean ====
/-
  The kernel program's run, read as a value.  Every weakly fair execution ends with the result array holding the
  reshape of the product x · dense, where dense is the matrix the host code scatters together from the weights and
  the indices — which is the reference's last stage of the same three arguments — and with the arguments unchanged.
-/
import proofs.«138841_j50448685859461_1_alg».proof.Proof.Gen.KernelIdeal.Frame
import proofs.«138841_j50448685859461_1_alg».proof.Proof.Tiles
import proofs.«138841_j50448685859461_1_alg».proof.Proof.HostSide
import proofs.«138841_j50448685859461_1_alg».proof.Proof.RefProduct

noncomputable section

namespace Cert.KernelIdeal.RunValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The program's result: the reshape of the kernel's output, which is the product of x by the dense matrix, is the
    reference's result stage of the launch contents of the three arguments. -/
theorem result_value (c : Dev nD) :
    Pipeline.afterTail₀ cfgs (dats m) 0 (V0 m) [hostOps1] c main_v31
      = Cert.ReferenceIdeal.Read.val_main_v31 (F := Ideal) (m ((c.tc : Thread nD τ).loc main_arg0))
          (m ((c.tc : Thread nD τ).loc main_arg1)) (m ((c.tc : Thread nD τ).loc main_arg2)) := by
  rw [Cert.KernelIdeal.HostSide.result_eq, Cert.KernelIdeal.Tiles.final, V_main_arg0, Cert.KernelIdeal.HostSide.dense_eq,
    ← Cert.ReferenceIdeal.RefValue.product_eq]
  rfl

/-- The run: the result at the reference's result stage of the arguments, the arguments as launched. -/
theorem run : θ_run defs (onTc (τ := τ) (main (F := Ideal))) ⟨m, fun _ => 0, ρ⟩ (fun r => ∀ c : Dev nD,
      r.2.mem ((c.tc : Thread nD τ).loc main_v31)
        = Cert.ReferenceIdeal.Read.val_main_v31 (F := Ideal) (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v31 (Pipeline.mem_restRefs_of main_v31 (by decide) (by decide))).trans (result_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.lean ====
/- The proof of `Cert.Claim` for the branch-layer sparse matmul.  Both programs build, with the same host operations on
   the same arguments, a dense 4096 × 16384 weight matrix: the last-write-wins mask of the index array, the masked
   weights, and their scatter-add into zeros.  The kernel program then multiplies the 128 × 4096 input x by that matrix
   in a kernel over sixteen column tiles of width 1024 — each tile narrows both operands to bf16, which at the
   ideal instance is the identity, and multiplies into a zero accumulator —, the reference multiplies with one host
   dot_general; both reshape the 128 × 16384 product to 128 × 64 × 256.  On the extended reals entry (r, c) of either
   product is the sum over k < 4096 of x(r, k) · dense(k, c): the kernel's zero accumulator adds nothing, its sixteen
   tiles cover every column once, and the two dense matrices are one term.  No law that needs finiteness is used, so the
   precondition is never opened.  The idealization rewrote no operation, so `preserves` is trivial; the three frames
   are the generated frame runs. -/
import proofs.«138841_j50448685859461_1_alg».proof.Defs
import proofs.«138841_j50448685859461_1_alg».proof.Proof.Gen.Kernel
import proofs.«138841_j50448685859461_1_alg».proof.Proof.Gen.Kernel.Skeleton
import proofs.«138841_j50448685859461_1_alg».proof.Proof.Gen.Kernel.Launch
import proofs.«138841_j50448685859461_1_alg».proof.Proof.Gen.Kernel.Points
import proofs.«138841_j50448685859461_1_alg».proof.Proof.Gen.Kernel.Frame
import proofs.«138841_j50448685859461_1_alg».proof.Proof.Gen.KernelIdeal
import proofs.«138841_j50448685859461_1_alg».proof.Proof.Gen.KernelIdeal.Skeleton
import proofs.«138841_j50448685859461_1_alg».proof.Proof.Gen.KernelIdeal.Launch
import proofs.«138841_j50448685859461_1_alg».proof.Proof.Gen.KernelIdeal.Points
import proofs.«138841_j50448685859461_1_alg».proof.Proof.Gen.KernelIdeal.Frame
import proofs.«138841_j50448685859461_1_alg».proof.Proof.Gen.ReferenceIdeal
import proofs.«138841_j50448685859461_1_alg».proof.Proof.Gen.ReferenceIdeal.Run
import proofs.«138841_j50448685859461_1_alg».proof.Proof.Gen.ReferenceIdeal.Read
import proofs.«138841_j50448685859461_1_alg».proof.Proof.Gen.Pre_finite_inputs
import proofs.«138841_j50448685859461_1_alg».proof.Proof.KernelRun
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's result stage of the three arguments: the kernel program by its run read as a
    value, the reference by its own run, from memories that agree on the arguments. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v31_eq _ _ _).trans ?_)
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
